-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : IVec S1600000 32) (main_arg2 : IVec S1600000 32) (main_arg3 : FVec F S64x64 .f32) (main_arg4 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S64x128 : Shape := ⟨2, ![64, 128]⟩
abbrev S128x128 : Shape := ⟨2, ![128, 128]⟩
abbrev S128 : Shape := ⟨1, ![128]⟩
abbrev S1x128 : Shape := ⟨2, ![1, 128]⟩
abbrev S50000x128 : Shape := ⟨2, ![50000, 128]⟩
abbrev S5000x128 : Shape := ⟨2, ![5000, 128]⟩

abbrev nBuf : Space → Nat
  | .hbm => 29
  | .vmem => 6
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x64, .f32⟩
  | .hbm, ⟨14, _⟩ => ⟨S_, .f32⟩
  | .hbm, ⟨15, _⟩ => ⟨S100000x64, .f32⟩
  | .hbm, ⟨16, _⟩ => ⟨S1600000x1, .i32⟩
  | .hbm, ⟨17, _⟩ => ⟨S100000x64, .f32⟩
  | .hbm, ⟨18, _⟩ => ⟨S64x64, .f32⟩
  | .hbm, ⟨19, _⟩ => ⟨S_, .f32⟩
  | .hbm, ⟨20, _⟩ => ⟨S64x64, .f32⟩
  | .hbm, ⟨21, _⟩ => ⟨S64x128, .f32⟩
  | .hbm, ⟨22, _⟩ => ⟨S64x128, .f32⟩
  | .hbm, ⟨23, _⟩ => ⟨S128x128, .f32⟩
  | .hbm, ⟨24, _⟩ => ⟨S128, .f32⟩
  | .hbm, ⟨25, _⟩ => ⟨S1x128, .f32⟩
  | .hbm, ⟨26, _⟩ => ⟨S50000x128, .f32⟩
  | .hbm, ⟨27, _⟩ => ⟨S50000x128, .f32⟩
  | .hbm, ⟨28, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_call0_v0 : Ref sig .tc := ⟨.hbm, 21, rfl⟩
abbrev main_call0_v1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  transposes_S64x64_S64x64_1_0 : S64x64.Transposes [1, 0] S64x64
  bcast_S_S64x64 : S_.BroadcastsInDim S64x64 (![] : Fin 0 → Fin S64x64.rank)
  concatenates_S64x64_S64x64_S64x128_d1 : Shape.Concatenates [S64x64, S64x64] S64x128 1
  concatenates_S64x128_S64x128_S128x128_d0 : Shape.Concatenates [S64x128, S64x128] S128x128 0
  concatenates_S64_S64_S128_d0 : Shape.Concatenates [S64, S64] S128 0
  shapeCasts_S128_S1x128 : S128.ShapeCasts S1x128
  shapeCasts_S100000x64_S50000x128 : S100000x64.ShapeCasts S50000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S50000x128_S100000x64 : S50000x128.ShapeCasts S100000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v15) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩

abbrev nBuf : Space → Nat
  | .hbm => 23
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x64, .f32⟩
  | .hbm, ⟨14, _⟩ => ⟨S_, .f32⟩
  | .hbm, ⟨15, _⟩ => ⟨S100000x64, .f32⟩
  | .hbm, ⟨16, _⟩ => ⟨S1600000x1, .i32⟩
  | .hbm, ⟨17, _⟩ => ⟨S100000x64, .f32⟩
  | .hbm, ⟨18, _⟩ => ⟨S64x64, .f32⟩
  | .hbm, ⟨19, _⟩ => ⟨S100000x64, .f32⟩
  | .hbm, ⟨20, _⟩ => ⟨S1x64, .f32⟩
  | .hbm, ⟨21, _⟩ => ⟨S100000x64, .f32⟩
  | .hbm, ⟨22, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.HostTerms.lean ====
/-
  The host-side terms around the matmul region, named: the segment sums (rows of `features` gathered at `src` and
  added up at `dst`), the 128 x 128 weight with the transposed weight in its two diagonal squares and zero in the
  other two, and the bias written twice as one row; and the region's result as one function of its three arrays.
-/
import proofs.«148819_j14035953123516_2_alg».proof.KernelIdeal
import Idealize.ShloMosaic.PureOps.Ideal
import Idealize.ShloMosaic.Lib.ValueIdx

noncomputable section

namespace Cert.KernelIdeal.Staged

open Cert.KernelIdeal Idealize.ShloMosaic Idealize.ShloMosaic.ValueIdx

/-- The segment sums: row `v` is the sum, over the edges `e` with `dst e = v`, of row `src e` of `features`
    (a negative `src` counted from the end), as the host's gather and scatter-add spell it. -/
def agg [Facts] (x0 : (⟨S100000x64, .f32⟩ : BufTy).Contents (Elt Ideal)) (x1 x2 : (⟨S1600000, .i32⟩ : BufTy).Contents (Elt Ideal)) :
    (⟨S100000x64, .f32⟩ : BufTy).Contents (Elt Ideal) :=
  Host.scatterAdd (F := Ideal) scatter_S100000x64_S1600000x1_S1600000x64_1_0_0_1
    (broadcastInDim S100000x64 ![] Facts₀.bcast_S_S100000x64 (constant (F := Ideal) S_ .f32 0x00000000#32))
    (broadcastInDim S1600000x1 ![0] Facts₀.bcast_S1600000_S1600000x1_0 x2)
    (Host.gather gather_S100000x64_S1600000x1_S1600000x64_1_0_n_n_0_1_164 x0
      (broadcastInDim S1600000x1 ![0] Facts₀.bcast_S1600000_S1600000x1_0
        (select (cmpi .slt x1 (broadcastInDim S1600000 ![] Facts₀.bcast_S_S1600000 (constantI S_ 32 0#32)))
          (addi x1 (broadcastInDim S1600000 ![] Facts₀.bcast_S_S1600000 (constantI S_ 32 100000#32))) x1)))

/-- The 128 x 128 weight: `[[Wt, 0], [0, Wt]]` with `Wt` the transposed weight. -/
def blockWeight [Facts] (x3 : (⟨S64x64, .f32⟩ : BufTy).Contents (Elt Ideal)) : (⟨S128x128, .f32⟩ : BufTy).Contents (Elt Ideal) :=
  concatenate S128x128 0
    [⟨S64x128, concatenate S64x128 1 [⟨S64x64, transpose S64x64 [1, 0] x3 Facts₀.transposes_S64x64_S64x64_1_0⟩,
        ⟨S64x64, broadcastInDim S64x64 ![] Facts₀.bcast_S_S64x64 (constant (F := Ideal) S_ .f32 0x00000000#32)⟩] Facts₀.concatenates_S64x64_S64x64_S64x128_d1⟩,
     ⟨S64x128, concatenate S64x128 1 [⟨S64x64, broadcastInDim S64x64 ![] Facts₀.bcast_S_S64x64 (constant (F := Ideal) S_ .f32 0x00000000#32)⟩,
        ⟨S64x64, transpose S64x64 [1, 0] x3 Facts₀.transposes_S64x64_S64x64_1_0⟩] Facts₀.concatenates_S64x64_S64x64_S64x128_d1⟩]
    Facts₀.concatenates_S64x128_S64x128_S128x128_d0

/-- The bias twice, as one row of 128. -/
def biasRow [Facts] (x4 : (⟨S64, .f32⟩ : BufTy).Contents (Elt Ideal)) : (⟨S1x128, .f32⟩ : BufTy).Contents (Elt Ideal) :=
  shapeCast S1x128 (concatenate S128 0 [⟨S64, x4⟩, ⟨S64, x4⟩] Facts₀.concatenates_S64_S64_S128_d0) Facts₀.shapeCasts_S128_S1x128

/-- What the region computes from its three whole arrays, as ONE function: the product with the bias row added to
    every row. -/
def product (L : S50000x128.Idx → EReal) (Wb : S128x128.Idx → EReal) (B : S1x128.Idx → EReal) : S50000x128.Idx → EReal :=
  fun i => (∑ k : Fin 128, L (ix2 (i 0) k) * Wb (ix2 k (i 1))) + B (ix2 (0 : Fin 1) (i 1))

theorem product_apply (L : S50000x128.Idx → EReal) (Wb : S128x128.Idx → EReal) (B : S1x128.Idx → EReal) (i : Fin 50000) (q : Fin 128) :
    product L Wb B (ix2 i q) = (∑ k : Fin 128, L (ix2 i k) * Wb (ix2 k q)) + B (ix2 (0 : Fin 1) q) := rfl

end Cert.KernelIdeal.Staged

end
-- ==== Proof.StagedArrays.lean ====
/-
  The three arrays the matmul region stages, as the host lines before it leave them, each as its pure term of the
  argument arrays: the segment sums regrouped two rows to a row, the block weight, and the doubled bias row.
-/
import proofs.«148819_j14035953123516_2_alg».proof.Proof.Gen.KernelIdeal.Frame
import proofs.«148819_j14035953123516_2_alg».proof.Proof.HostTerms
import Idealize.ShloMosaic.Lib.StableHlo.Run
import Idealize.ShloMosaic.PureOps.Ideal

noncomputable section

namespace Cert.KernelIdeal.Staged

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The left operand's array at the region's entry: the segment sums, two rows to a row. -/
theorem left_eq (c : Dev nD) :
    (V m c main_v15 : (⟨S50000x128, .f32⟩ : BufTy).Contents (Elt Ideal))
      = shapeCast S50000x128 (agg (m ((c : Thread nD τ).loc main_arg0)) (m ((c : Thread nD τ).loc main_arg1)) (m ((c : Thread nD τ).loc main_arg2)))
          shapeCasts_S100000x64_S50000x128 := by
  dsimp only [Gen.V, Gen.V0]
  simp only [Gen.hostOps0, Gen.hostOps0_1, Gen.hostOps0_2, List.flatten_cons, List.flatten_nil, List.append_nil, List.cons_append,
    List.nil_append]
  after_results
  rfl

/-- The right operand's array at the region's entry. -/
theorem weight_eq (c : Dev nD) :
    (V m c main_v12 : (⟨S128x128, .f32⟩ : BufTy).Contents (Elt Ideal)) = blockWeight (m ((c : Thread nD τ).loc main_arg3)) := by
  dsimp only [Gen.V, Gen.V0]
  simp only [Gen.hostOps0, Gen.hostOps0_1, Gen.hostOps0_2, List.flatten_cons, List.flatten_nil, List.append_nil, List.cons_append,
    List.nil_append]
  after_results
  rfl

/-- The bias operand's array at the region's entry. -/
theorem bias_eq (c : Dev nD) :
    (V m c main_v14 : (⟨S1x128, .f32⟩ : BufTy).Contents (Elt Ideal)) = biasRow (m ((c : Thread nD τ).loc main_arg4)) := by
  dsimp only [Gen.V, Gen.V0]
  simp only [Gen.hostOps0, Gen.hostOps0_1, Gen.hostOps0_2, List.flatten_cons, List.flatten_nil, List.append_nil, List.cons_append,
    List.nil_append]
  after_results
  rfl

/-! The same three facts with each array named as its window's array. -/

theorem left_arr (c : Dev nD) :
    (V m c (Pipeline.arrRef spec0 0) : (⟨S50000x128, .f32⟩ : BufTy).Contents (Elt Ideal))
      = shapeCast S50000x128 (agg (m ((c : Thread nD τ).loc main_arg0)) (m ((c : Thread nD τ).loc main_arg1)) (m ((c : Thread nD τ).loc main_arg2)))
          shapeCasts_S100000x64_S50000x128 :=
  left_eq m c

theorem weight_arr (c : Dev nD) :
    (V m c (Pipeline.arrRef spec0 1) : (⟨S128x128, .f32⟩ : BufTy).Contents (Elt Ideal)) = blockWeight (m ((c : Thread nD τ).loc main_arg3)) :=
  weight_eq m c

theorem bias_arr (c : Dev nD) :
    (V m c (Pipeline.arrRef spec0 2) : (⟨S1x128, .f32⟩ : BufTy).Contents (Elt Ideal)) = biasRow (m ((c : Thread nD τ).loc main_arg4)) :=
  bias_eq m c

end Cert.KernelIdeal.Staged

end
-- ==== Proof.BodyAtIndex.lean ====
/-
  One grid step's arithmetic at an index. The body multiplies its 5000 x 128 block of the left operand by the whole
  128 x 128 weight (into a zero accumulator; the roundings to bf16 are the identity on the extended reals) and adds the
  one-row bias to every row: entry (p, q) of what it stores is  sum_k x(p, k) * w(k, q) + bias(0, q).
-/
import proofs.«148819_j14035953123516_2_alg».proof.Proof.Gen.KernelIdeal.Skeleton
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx

theorem lhs_coord0 (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem lhs_coord1 (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c
theorem rhs_coord0 (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c
theorem rhs_coord1 (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The matmul's left index at output (p, q) and contraction position k is (p, k). -/
theorem lhs_at (p : Fin 5000) (q k : Fin 128) :
    dot_S5000x128_S128x128_S5000x128_1_0_0_1_n_n.lhsIdx (ix2 p q)
        ((contrEquiv1 dot_S5000x128_S128x128_S5000x128_1_0_0_1_n_n 128 rfl rfl).symm k) = ix2 p k := by
  have hk := contrEquiv1_symm_val dot_S5000x128_S128x128_S5000x128_1_0_0_1_n_n 128 rfl rfl k
  exact funext fun a => Fin.ext (by
    match a with
    | ⟨0, _⟩ => exact lhs_coord0 _ _
    | ⟨1, _⟩ => exact (lhs_coord1 _ _).trans hk)

/-- The matmul's right index at output (p, q) and contraction position k is (k, q). -/
theorem rhs_at (p : Fin 5000) (q k : Fin 128) :
    dot_S5000x128_S128x128_S5000x128_1_0_0_1_n_n.rhsIdx (ix2 p q)
        ((contrEquiv1 dot_S5000x128_S128x128_S5000x128_1_0_0_1_n_n 128 rfl rfl).symm k) = ix2 k q := by
  have hk := contrEquiv1_symm_val dot_S5000x128_S128x128_S5000x128_1_0_0_1_n_n 128 rfl rfl k
  exact funext fun a => Fin.ext (by
    match a with
    | ⟨0, _⟩ => exact (rhs_coord0 _ _).trans hk
    | ⟨1, _⟩ => exact rhs_coord1 _ _)

/-- What the body stores, at row p and column q of its block. -/
theorem stored_at (x0 : Vec Ideal S5000x128 .f32) (x1 : Vec Ideal S128x128 .f32) (x2 : Vec Ideal S1x128 .f32)
    (p : Fin 5000) (q : Fin 128) :
    k0_pay1 (F := Ideal) x0 x1 x2 (ix2 p q) = (∑ k : Fin 128, x0 (ix2 p k) * x1 (ix2 k q)) + x2 (ix2 (0 : Fin 1) q) := by
  unfold k0_pay1
  rw [shapeCast_self, shapeCast_self, shapeCast_self]
  rw [addf_apply]
  refine congrArg₂ (· + ·) ?_ ?_
  · simp only [matmul]
    rw [Ideal.matmul_constant_zero_apply,
      ← Equiv.sum_comp (contrEquiv1 dot_S5000x128_S128x128_S5000x128_1_0_0_1_n_n 128 rfl rfl).symm]
    refine Finset.sum_congr rfl fun k _ => ?_
    rw [lhs_at, rhs_at]
    rfl
  · exact broadcastTo_1b_ab_apply x2 broadcasts_S1x128_S5000x128 p q

end Cert.KernelIdeal.Body

end
-- ==== Proof.RegionBlocks.lean ====
/-
  The region's blocks. Grid step t reads rows 5000 t .. 5000 t + 4999 of the left operand's array, the whole weight
  and the whole bias row, and writes the same rows of the output array; the ten steps' row blocks tile the 50000 rows.
  Each reading is stated for an arbitrary array first, so that it is a statement about indices alone.
-/
import proofs.«148819_j14035953123516_2_alg».proof.Proof.Gen.KernelIdeal.Frame
import Idealize.ShloMosaic.Lib.Pipeline.Value
import Idealize.ShloMosaic.Lib.ValueIdx

noncomputable section

namespace Cert.KernelIdeal.Region

open Cert.KernelIdeal Cert.KernelIdeal.Gen Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-- The printed index maps over the grid: the left operand's and the output's row blocks are both block t, every other
    block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of step t's block is row 5000 t + p of the array. -/
def row (t : Fin cfg0.N) (p : Fin 5000) : Fin 50000 :=
  ⟨t.val * 5000 + p.val, by have h : t.val < grid0.N := t.isLt; rw [N_0] at h; have := p.isLt; omega⟩

/-! ## Each window's block, read off an arbitrary array -/

theorem left_read (A : S50000x128.Idx → EReal) (t : Fin cfg0.N) (p : Fin 5000) (k : Fin 128) :
    ((cfg0.win 0).blk t).view.read (Elt Ideal) A (ix2 p k) = A (ix2 (row t p) k) := by
  obtain ⟨e0, e1, -, -, -, -, -, -⟩ := idx_facts t
  show A (((cfg0.win 0).blk t).view.emb (ix2 p k)) = A (ix2 (row t p) k)
  refine congrArg A (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

theorem weight_read (A : S128x128.Idx → EReal) (t : Fin cfg0.N) (k q : Fin 128) :
    ((cfg0.win 1).blk t).view.read (Elt Ideal) A (ix2 k q) = A (ix2 k q) := by
  obtain ⟨-, -, e2, e3, -, -, -, -⟩ := idx_facts t
  show A (((cfg0.win 1).blk t).view.emb (ix2 k q)) = A (ix2 k q)
  refine congrArg A (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

theorem bias_read (A : S1x128.Idx → EReal) (t : Fin cfg0.N) (q : Fin 128) :
    ((cfg0.win 2).blk t).view.read (Elt Ideal) A (ix2 (0 : Fin 1) q) = A (ix2 (0 : Fin 1) q) := by
  obtain ⟨-, -, -, -, e4, e5, -, -⟩ := idx_facts t
  show A (((cfg0.win 2).blk t).view.emb (ix2 (0 : Fin 1) q)) = A (ix2 (0 : Fin 1) q)
  refine congrArg A (funext fun a => Fin.ext ?_)
  match a with
  | ⟨0, _⟩ => show win0_2.index t (0 : Fin 2) * 1 + 1 * 0 = 0; omega
  | ⟨1, _⟩ => show win0_2.index t (1 : Fin 2) * 128 + 1 * q.val = q.val; omega

/-- A block whose entry (p, q) is entry (5000 t + p, q) of an array is the output window's block t of that array. -/
theorem out_read (t : Fin cfg0.N) (X : S5000x128.Idx → EReal) (G : S50000x128.Idx → EReal)
    (h : ∀ (p : Fin 5000) (q : Fin 128), X (ix2 p q) = G (ix2 (row t p) q)) :
    (cfg0.win 3).cut (grid0.coords t) X = ((cfg0.win 3).blk t).view.read (Elt Ideal) G := by
  obtain ⟨-, -, -, -, -, -, e6, e7⟩ := idx_facts t
  funext y
  obtain ⟨p, q, rfl⟩ : ∃ (p : Fin 5000) (q : Fin 128), y = ix2 p q := ⟨y 0, y 1, eq_ix2 y⟩
  show X (ix2 p q) = G (((cfg0.win 3).blk t).view.emb (ix2 p q))
  refine (h p q).trans (congrArg G (funext fun a => Fin.ext ?_))
  match a with
  | ⟨0, _⟩ => show t.val * 5000 + p.val = win0_3.index t (0 : Fin 2) * 5000 + 1 * p.val; omega
  | ⟨1, _⟩ => show q.val = win0_3.index t (1 : Fin 2) * 128 + 1 * q.val; omega

/-! ## The same at the region's arrays -/

variable (m : (ℓ : Loc nD τ sig) → Buf (Elt Ideal) ℓ)

theorem left_block (c : Dev nD) (t : Fin cfg0.N) (p : Fin 5000) (k : Fin 128) :
    iblk m c 0 t (ix2 p k) = V m c (Pipeline.arrRef spec0 0) (ix2 (row t p) k) := by
  unfold iblk
  exact left_read (V m c (Pipeline.arrRef spec0 0)) t p k

theorem weight_block (c : Dev nD) (t : Fin cfg0.N) (k q : Fin 128) :
    iblk m c 1 t (ix2 k q) = V m c (Pipeline.arrRef spec0 1) (ix2 k q) := by
  unfold iblk
  exact weight_read (V m c (Pipeline.arrRef spec0 1)) t k q

theorem bias_block (c : Dev nD) (t : Fin cfg0.N) (q : Fin 128) :
    iblk m c 2 t (ix2 (0 : Fin 1) q) = V m c (Pipeline.arrRef spec0 2) (ix2 (0 : Fin 1) q) := by
  unfold iblk
  exact bias_read (V m c (Pipeline.arrRef spec0 2)) t q

/-! ## The output's blocks tile its array -/

/-- An index of the output array is in step t's block iff each coordinate is in the block's range on its axis. -/
theorem mem_blk (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v16).slice (win0_3.rect t)).set ↔ _
  rw [View.set_slice_whole, Rect.mem_set_unit]
  exact Iff.rfl

/-- Every row of the output array lies in some step's block: row i in step i / 5000's. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have ht : (i 0).val / 5000 < cfg0.N := by show _ < grid0.N; rw [N_0]; omega
  refine ⟨⟨(i 0).val / 5000, ht⟩, flush0_3 _, ?_⟩
  obtain ⟨-, -, -, -, -, -, e6, e7⟩ := idx_facts ⟨(i 0).val / 5000, ht⟩
  rw [mem_blk]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win0_3.index ⟨(i 0).val / 5000, ht⟩ (1 : Fin 2) * 128 ≤ (i 1).val
      ∧ (i 1).val < win0_3.index ⟨(i 0).val / 5000, ht⟩ (1 : Fin 2) * 128 + 128
    rw [e7]; omega

end Cert.KernelIdeal.Region

end
-- ==== Proof.RegionArray.lean ====
/-
  From blocks to the array. What grid step t writes back is block t of ONE function of the three staged arrays — entry
  (i, q) is  sum_k left(i, k) * weight(k, q) + bias(0, q)  — and the steps' blocks tile the output array, so after the
  region the output array is that function.
-/
import proofs.«148819_j14035953123516_2_alg».proof.Proof.Gen.KernelIdeal.Frame
import proofs.«148819_j14035953123516_2_alg».proof.Proof.BodyAtIndex
import proofs.«148819_j14035953123516_2_alg».proof.Proof.RegionBlocks
import proofs.«148819_j14035953123516_2_alg».proof.Proof.HostTerms
import Idealize.ShloMosaic.Lib.Pipeline.Value
import Idealize.ShloMosaic.Lib.ValueIdx

noncomputable section

namespace Cert.KernelIdeal.Region

open Cert.KernelIdeal Cert.KernelIdeal.Gen Idealize.ShloMosaic Idealize.ShloMosaic.TcCoe Idealize.SL.Sem Idealize.ShloMosaic.ValueIdx
open Idealize.ShloMosaic.Pipeline (Dat)
open Cert.KernelIdeal.Staged (product product_apply)

variable (m : (ℓ : Loc nD τ sig) → Buf (Elt Ideal) ℓ)

/-- What step t writes back is block t of the product of the staged arrays. -/
theorem flushed_eq (c : Dev nD) (t : Fin cfg0.N) :
    (dats m 0 c).flushed 3 t
      = ((cfg0.win 3).blk t).view.read (Elt Ideal)
          (product (V m c (Pipeline.arrRef spec0 0)) (V m c (Pipeline.arrRef spec0 1)) (V m c (Pipeline.arrRef spec0 2))) := by
  show (cfg0.win 3).cut (grid0.coords t) ((dats m 0 c).after 3 t) = _
  rw [after0_3]
  unfold out0_3
  rw [View.canon_unit_zero hz]
  simp only [View.ld_unit_zero (S := S5000x128) hz, View.ld_unit_zero (S := S128x128) hz, View.ld_unit_zero (S := S1x128) hz]
  refine out_read t _ _ (fun p q => ?_)
  refine (Body.stored_at (iblk m c 0 t) (iblk m c 1 t) (iblk m c 2 t) p q).trans ?_
  rw [product_apply, bias_block m c t q]
  refine congrArg (· + V m c (Pipeline.arrRef spec0 2) (ix2 (0 : Fin 1) q)) (Finset.sum_congr rfl fun k _ => ?_)
  rw [left_block m c t p k, weight_block m c t k q]

/-- The output array after the region. -/
theorem final (c : Dev nD) :
    (dats m 0 c).arrAt 3 cfg0.N
      = product (V m c (Pipeline.arrRef spec0 0)) (V m c (Pipeline.arrRef spec0 1)) (V m c (Pipeline.arrRef spec0 2)) :=
  (dats m 0 c).arrAt_eq_of_cover 3 _ (fun t _ => flushed_eq m c t) cover

end Cert.KernelIdeal.Region

end
-- ==== Proof.HostLayout.lean ====
/-
  The staged arrays read at an index. Regrouping the 100000 x 64 segment sums two rows to a row puts row 2p in the
  low 64 columns of row p and row 2p + 1 in the high 64. The block weight is the transposed weight where row and
  column lie in the same half and zero where they do not. The doubled bias reads the bias at the column's position
  inside its half.
-/
import proofs.«148819_j14035953123516_2_alg».proof.Proof.HostTerms
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Staged

open Cert.KernelIdeal Idealize.ShloMosaic Idealize.ShloMosaic.ValueIdx

variable [Facts]

/-! ## The regrouped segment sums -/

theorem left_lo (a : (⟨S100000x64, .f32⟩ : BufTy).Contents (Elt Ideal)) (p : Fin 50000) (k : Fin 64) :
    shapeCast S50000x128 a Facts₀.shapeCasts_S100000x64_S50000x128 (ix2 p (⟨k.val, by have := k.isLt; omega⟩ : Fin 128))
      = a (ix2 (⟨2 * p.val, by have := p.isLt; omega⟩ : Fin 100000) k) :=
  shapeCast_apply a _ _ _ (by
    rw [Shape.rowMajor_val_two, Shape.rowMajor_val_two]
    show (2 * p.val) * 64 + k.val = p.val * 128 + k.val
    omega)

theorem left_hi (a : (⟨S100000x64, .f32⟩ : BufTy).Contents (Elt Ideal)) (p : Fin 50000) (k : Fin 64) :
    shapeCast S50000x128 a Facts₀.shapeCasts_S100000x64_S50000x128 (ix2 p (⟨64 + k.val, by have := k.isLt; omega⟩ : Fin 128))
      = a (ix2 (⟨2 * p.val + 1, by have := p.isLt; omega⟩ : Fin 100000) k) :=
  shapeCast_apply a _ _ _ (by
    rw [Shape.rowMajor_val_two, Shape.rowMajor_val_two]
    show (2 * p.val + 1) * 64 + k.val = p.val * 128 + (64 + k.val)
    omega)

/-! ## The block weight -/

theorem zero_at (i : S64x64.Idx) :
    broadcastInDim S64x64 ![] Facts₀.bcast_S_S64x64 (constant (F := Ideal) S_ .f32 0x00000000#32) i = 0 := by
  rw [broadcastInDim_apply _ Facts₀.bcast_S_S64x64 _ i ix0 (fun a => a.elim0)]
  exact Ideal.ofBits_zero_f32

theorem wt_at (W : (⟨S64x64, .f32⟩ : BufTy).Contents (Elt Ideal)) (k j : Fin 64) :
    transpose S64x64 [1, 0] W Facts₀.transposes_S64x64_S64x64_1_0 (ix2 k j) = W (ix2 j k) :=
  transpose_ix2_apply W Facts₀.transposes_S64x64_S64x64_1_0 k j

/-- Row in the low half, column in the low half: the transposed weight. -/
theorem weight_lo_lo (W : (⟨S64x64, .f32⟩ : BufTy).Contents (Elt Ideal)) (k j : Fin 64) :
    blockWeight W (ix2 (⟨k.val, by have := k.isLt; omega⟩ : Fin 128) (⟨j.val, by have := j.isLt; omega⟩ : Fin 128)) = W (ix2 j k) := by
  unfold blockWeight
  refine (concatenate_pair_apply_left (t := S128x128) (s₁ := S64x128) (s₂ := S64x128) (0 : Fin 2) _ _ Facts₀.concatenates_S64x128_S64x128_S128x128_d0 _ rfl
    (ix2 k (⟨j.val, by have := j.isLt; omega⟩ : Fin 128)) (fun b => match b with | ⟨0, _⟩ => rfl | ⟨1, _⟩ => rfl)).trans ?_
  refine (concatenate_pair_apply_left (t := S64x128) (s₁ := S64x64) (s₂ := S64x64) (1 : Fin 2) _ _ Facts₀.concatenates_S64x64_S64x64_S64x128_d1 _ rfl
    (ix2 k j) (fun b => match b with | ⟨0, _⟩ => rfl | ⟨1, _⟩ => rfl)).trans ?_
  exact wt_at W k j

/-- Row in the low half, column in the high half: zero. -/
theorem weight_lo_hi (W : (⟨S64x64, .f32⟩ : BufTy).Contents (Elt Ideal)) (k j : Fin 64) :
    blockWeight W (ix2 (⟨k.val, by have := k.isLt; omega⟩ : Fin 128) (⟨64 + j.val, by have := j.isLt; omega⟩ : Fin 128)) = 0 := by
  unfold blockWeight
  refine (concatenate_pair_apply_left (t := S128x128) (s₁ := S64x128) (s₂ := S64x128) (0 : Fin 2) _ _ Facts₀.concatenates_S64x128_S64x128_S128x128_d0 _ rfl
    (ix2 k (⟨64 + j.val, by have := j.isLt; omega⟩ : Fin 128)) (fun b => match b with | ⟨0, _⟩ => rfl | ⟨1, _⟩ => rfl)).trans ?_
  refine (concatenate_pair_apply_right (t := S64x128) (s₁ := S64x64) (s₂ := S64x64) (1 : Fin 2) _ _ Facts₀.concatenates_S64x64_S64x64_S64x128_d1 _ rfl rfl
    (ix2 k j) (fun b hb => match b with | ⟨0, _⟩ => rfl | ⟨1, _⟩ => absurd rfl hb) (by show j.val + 64 = 64 + j.val; omega)).trans ?_
  exact zero_at _

/-- Row in the high half, column in the low half: zero. -/
theorem weight_hi_lo (W : (⟨S64x64, .f32⟩ : BufTy).Contents (Elt Ideal)) (k j : Fin 64) :
    blockWeight W (ix2 (⟨64 + k.val, by have := k.isLt; omega⟩ : Fin 128) (⟨j.val, by have := j.isLt; omega⟩ : Fin 128)) = 0 := by
  unfold blockWeight
  refine (concatenate_pair_apply_right (t := S128x128) (s₁ := S64x128) (s₂ := S64x128) (0 : Fin 2) _ _ Facts₀.concatenates_S64x128_S64x128_S128x128_d0 _ rfl rfl
    (ix2 k (⟨j.val, by have := j.isLt; omega⟩ : Fin 128)) (fun b hb => match b with | ⟨0, _⟩ => absurd rfl hb | ⟨1, _⟩ => rfl)
    (by show k.val + 64 = 64 + k.val; omega)).trans ?_
  refine (concatenate_pair_apply_left (t := S64x128) (s₁ := S64x64) (s₂ := S64x64) (1 : Fin 2) _ _ Facts₀.concatenates_S64x64_S64x64_S64x128_d1 _ rfl
    (ix2 k j) (fun b => match b with | ⟨0, _⟩ => rfl | ⟨1, _⟩ => rfl)).trans ?_
  exact zero_at _

/-- Row in the high half, column in the high half: the transposed weight. -/
theorem weight_hi_hi (W : (⟨S64x64, .f32⟩ : BufTy).Contents (Elt Ideal)) (k j : Fin 64) :
    blockWeight W (ix2 (⟨64 + k.val, by have := k.isLt; omega⟩ : Fin 128) (⟨64 + j.val, by have := j.isLt; omega⟩ : Fin 128)) = W (ix2 j k) := by
  unfold blockWeight
  refine (concatenate_pair_apply_right (t := S128x128) (s₁ := S64x128) (s₂ := S64x128) (0 : Fin 2) _ _ Facts₀.concatenates_S64x128_S64x128_S128x128_d0 _ rfl rfl
    (ix2 k (⟨64 + j.val, by have := j.isLt; omega⟩ : Fin 128)) (fun b hb => match b with | ⟨0, _⟩ => absurd rfl hb | ⟨1, _⟩ => rfl)
    (by show k.val + 64 = 64 + k.val; omega)).trans ?_
  refine (concatenate_pair_apply_right (t := S64x128) (s₁ := S64x64) (s₂ := S64x64) (1 : Fin 2) _ _ Facts₀.concatenates_S64x64_S64x64_S64x128_d1 _ rfl rfl
    (ix2 k j) (fun b hb => match b with | ⟨0, _⟩ => rfl | ⟨1, _⟩ => absurd rfl hb) (by show j.val + 64 = 64 + j.val; omega)).trans ?_
  exact wt_at W k j

/-! ## The doubled bias -/

theorem bias_lo (b : (⟨S64, .f32⟩ : BufTy).Contents (Elt Ideal)) (u : Fin 1) (j : Fin 64) :
    biasRow b (ix2 u (⟨j.val, by have := j.isLt; omega⟩ : Fin 128)) = b (ix1 j) := by
  unfold biasRow
  refine (shapeCast_a_1a_apply _ Facts₀.shapeCasts_S128_S1x128 u _).trans ?_
  exact concatenate_pair_apply_left (t := S128) (s₁ := S64) (s₂ := S64) (0 : Fin 1) _ _ Facts₀.concatenates_S64_S64_S128_d0 _ rfl (ix1 j)
    (fun c => match c with | ⟨0, _⟩ => rfl)

theorem bias_hi (b : (⟨S64, .f32⟩ : BufTy).Contents (Elt Ideal)) (u : Fin 1) (j : Fin 64) :
    biasRow b (ix2 u (⟨64 + j.val, by have := j.isLt; omega⟩ : Fin 128)) = b (ix1 j) := by
  unfold biasRow
  refine (shapeCast_a_1a_apply _ Facts₀.shapeCasts_S128_S1x128 u _).trans ?_
  exact concatenate_pair_apply_right (t := S128) (s₁ := S64) (s₂ := S64) (0 : Fin 1) _ _ Facts₀.concatenates_S64_S64_S128_d0 _ rfl rfl (ix1 j)
    (fun c hc => match c with | ⟨0, _⟩ => absurd rfl hc) (by show j.val + 64 = 64 + j.val; omega)

end Cert.KernelIdeal.Staged

end
-- ==== Proof.Spec.lean ====
/-
  The specification. With `a` the 100000 x 64 segment sums, `W` the 64 x 64 weight (row = output feature) and `b` the
  bias, the layer's result at row r and feature j is  sum_k a(r, k) * W(j, k) + b(j)  on the extended reals.
  Also the one law the bridge needs: a sum over 128 positions is the sum over the low 64 plus the sum over the high 64.
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx

/-- The linear layer applied to every row. -/
def linearRows (a : (⟨2, ![100000, 64]⟩ : Shape).Idx → EReal) (W : (⟨2, ![64, 64]⟩ : Shape).Idx → EReal)
    (b : (⟨1, ![64]⟩ : Shape).Idx → EReal) : (⟨2, ![100000, 64]⟩ : Shape).Idx → EReal :=
  fun i => (∑ k : Fin 64, a (ix2 (i 0) k) * W (ix2 (i 1) k)) + b (ix1 (i 1))

theorem linearRows_apply (a : (⟨2, ![100000, 64]⟩ : Shape).Idx → EReal) (W : (⟨2, ![64, 64]⟩ : Shape).Idx → EReal)
    (b : (⟨1, ![64]⟩ : Shape).Idx → EReal) (r : Fin 100000) (j : Fin 64) :
    linearRows a W b (ix2 r j) = (∑ k : Fin 64, a (ix2 r k) * W (ix2 j k)) + b (ix1 j) := rfl

/-- A sum over 128 positions, split into its low and high halves. -/
theorem sum_halves (f : Fin 128 → EReal) :
    ∑ k : Fin 128, f k
      = (∑ k : Fin 64, f ⟨k.val, by have := k.isLt; omega⟩) + ∑ k : Fin 64, f ⟨64 + k.val, by have := k.isLt; omega⟩ :=
  Fin.sum_univ_add (a := 64) (b := 64) f

end Cert.Spec

end
-- ==== Proof.KernelAlgebra.lean ====
/-
  The kernel's result at an index. The output array of the region is regrouped back from 50000 x 128 to 100000 x 64:
  row 2p is the low 64 columns of the region's row p and row 2p + 1 the high 64. In the region's row p, the low 64
  columns see only the low 64 positions of the sum (the weight's other square is zero there, and anything times zero is
  zero on the extended reals), which are row 2p of the segment sums against the weight; the high 64 columns see only
  the high 64 positions, which are row 2p + 1. Either way the entry is the specification's.
-/
import proofs.«148819_j14035953123516_2_alg».proof.Proof.HostLayout
import proofs.«148819_j14035953123516_2_alg».proof.Proof.Spec

noncomputable section

namespace Cert.KernelIdeal.Staged

open Cert.KernelIdeal Idealize.ShloMosaic Idealize.ShloMosaic.ValueIdx

variable [Facts]

/-- An even row of the result. -/
theorem result_even (a : (⟨S100000x64, .f32⟩ : BufTy).Contents (Elt Ideal)) (W : (⟨S64x64, .f32⟩ : BufTy).Contents (Elt Ideal))
    (b : (⟨S64, .f32⟩ : BufTy).Contents (Elt Ideal)) (p : Fin 50000) (j : Fin 64) :
    shapeCast S100000x64 (product (shapeCast S50000x128 a Facts₀.shapeCasts_S100000x64_S50000x128) (blockWeight W) (biasRow b))
        Facts₀.shapeCasts_S50000x128_S100000x64 (ix2 (⟨2 * p.val, by have := p.isLt; omega⟩ : Fin 100000) j)
      = Cert.Spec.linearRows a W b (ix2 (⟨2 * p.val, by have := p.isLt; omega⟩ : Fin 100000) j) := by
  refine (shapeCast_apply _ Facts₀.shapeCasts_S50000x128_S100000x64 _ (ix2 p (⟨j.val, by have := j.isLt; omega⟩ : Fin 128)) (by
    rw [Shape.rowMajor_val_two, Shape.rowMajor_val_two]
    show p.val * 128 + j.val = (2 * p.val) * 64 + j.val
    omega)).trans ?_
  rw [product_apply, Cert.Spec.linearRows_apply, bias_lo, Cert.Spec.sum_halves]
  simp only [weight_lo_lo, weight_hi_lo, mul_zero, Finset.sum_const_zero, add_zero]
  exact congrArg (· + b (ix1 j)) (Finset.sum_congr rfl fun k _ => congrArg (· * W (ix2 j k)) (left_lo a p k))

/-- An odd row of the result. -/
theorem result_odd (a : (⟨S100000x64, .f32⟩ : BufTy).Contents (Elt Ideal)) (W : (⟨S64x64, .f32⟩ : BufTy).Contents (Elt Ideal))
    (b : (⟨S64, .f32⟩ : BufTy).Contents (Elt Ideal)) (p : Fin 50000) (j : Fin 64) :
    shapeCast S100000x64 (product (shapeCast S50000x128 a Facts₀.shapeCasts_S100000x64_S50000x128) (blockWeight W) (biasRow b))
        Facts₀.shapeCasts_S50000x128_S100000x64 (ix2 (⟨2 * p.val + 1, by have := p.isLt; omega⟩ : Fin 100000) j)
      = Cert.Spec.linearRows a W b (ix2 (⟨2 * p.val + 1, by have := p.isLt; omega⟩ : Fin 100000) j) := by
  refine (shapeCast_apply _ Facts₀.shapeCasts_S50000x128_S100000x64 _ (ix2 p (⟨64 + j.val, by have := j.isLt; omega⟩ : Fin 128)) (by
    rw [Shape.rowMajor_val_two, Shape.rowMajor_val_two]
    show p.val * 128 + (64 + j.val) = (2 * p.val + 1) * 64 + j.val
    omega)).trans ?_
  rw [product_apply, Cert.Spec.linearRows_apply, bias_hi, Cert.Spec.sum_halves]
  simp only [weight_lo_hi, weight_hi_hi, mul_zero, Finset.sum_const_zero, zero_add]
  exact congrArg (· + b (ix1 j)) (Finset.sum_congr rfl fun k _ => congrArg (· * W (ix2 j k)) (left_hi a p k))

/-- The kernel's result, as a whole array, is the specification of the segment sums. -/
theorem result_eq (a : (⟨S100000x64, .f32⟩ : BufTy).Contents (Elt Ideal)) (W : (⟨S64x64, .f32⟩ : BufTy).Contents (Elt Ideal))
    (b : (⟨S64, .f32⟩ : BufTy).Contents (Elt Ideal)) :
    shapeCast S100000x64 (product (shapeCast S50000x128 a Facts₀.shapeCasts_S100000x64_S50000x128) (blockWeight W) (biasRow b))
        Facts₀.shapeCasts_S50000x128_S100000x64
      = Cert.Spec.linearRows a W b := by
  funext i
  obtain ⟨r, j, rfl⟩ : ∃ (r : Fin 100000) (j : Fin 64), i = ix2 r j := ⟨i 0, i 1, eq_ix2 i⟩
  have hr : r.val < 100000 := r.isLt
  rcases Nat.mod_two_eq_zero_or_one r.val with h | h
  · have e : r = (⟨2 * (r.val / 2), by omega⟩ : Fin 100000) := Fin.ext (by show r.val = 2 * (r.val / 2); omega)
    rw [e]
    exact result_even a W b ⟨r.val / 2, by omega⟩ j
  · have e : r = (⟨2 * (r.val / 2) + 1, by omega⟩ : Fin 100000) := Fin.ext (by show r.val = 2 * (r.val / 2) + 1; omega)
    rw [e]
    exact result_odd a W b ⟨r.val / 2, by omega⟩ j

end Cert.KernelIdeal.Staged

end
-- ==== Proof.KernelRun.lean ====
/-
  The kernel program's run, read. The frame run leaves the region's output array at the product of the staged arrays;
  the one host line after the region regroups it to 100000 x 64; with the staged arrays written out, the result is the
  specification of the segment sums, and the argument arrays end as launched.
-/
import proofs.«148819_j14035953123516_2_alg».proof.Proof.Gen.KernelIdeal.Frame
import proofs.«148819_j14035953123516_2_alg».proof.Proof.StagedArrays
import proofs.«148819_j14035953123516_2_alg».proof.Proof.RegionArray
import proofs.«148819_j14035953123516_2_alg».proof.Proof.KernelAlgebra
import Idealize.ShloMosaic.Lib.StableHlo.Run

noncomputable section

namespace Cert.KernelIdeal.Whole

open Cert.KernelIdeal Cert.KernelIdeal.Gen Idealize.ShloMosaic Idealize.ShloMosaic.TcCoe Idealize.SL.Sem Idealize.ShloMosaic.StableHlo
open Idealize.ShloMosaic.Pipeline (Dat)
open Cert.KernelIdeal.Staged (agg blockWeight biasRow product)

variable (m : (ℓ : Loc nD τ sig) → Buf (Elt Ideal) ℓ) (ρ : Dev nD → PrngReg)

/-- The result buffer after the host line that follows the region: the region's output array regrouped. -/
theorem tail_eq (c : Dev nD) :
    Pipeline.afterTail₀ cfgs (dats m) 0 (V0 m) [hostOps1] c main_v17
      = shapeCast S100000x64 ((dats m 0 c).arrAt 3 cfg0.N) shapeCasts_S50000x128_S100000x64 := by
  have e : Pipeline.withArrays spec0 c (V0 m c) (fun w => (dats m 0 c).arrAt w cfg0.N) (Proc.devRef .tc main_v16)
      = (dats m 0 c).arrAt 3 cfg0.N :=
    Pipeline.withArrays_arr spec0 launch0.win.arr_inj c _ _ 3
  unfold Pipeline.afterTail₀
  show StableHlo.after hostOps1 _ (Proc.devRef .tc main_v17) = _
  after_results
  rw [e]
  generalize (dats m 0 c).arrAt 3 cfg0.N = X
  rfl

/-- The regrouped output array is the specification of the segment sums. -/
theorem result (c : Dev nD) :
    shapeCast S100000x64 ((dats m 0 c).arrAt 3 cfg0.N) shapeCasts_S50000x128_S100000x64
      = Cert.Spec.linearRows
          (agg (m ((c : Thread nD τ).loc main_arg0)) (m ((c : Thread nD τ).loc main_arg1)) (m ((c : Thread nD τ).loc main_arg2)))
          (m ((c : Thread nD τ).loc main_arg3)) (m ((c : Thread nD τ).loc main_arg4)) := by
  rw [Region.final m c, Staged.left_arr m c, Staged.weight_arr m c, Staged.bias_arr m c]
  exact Staged.result_eq _ _ _

/-- The run: every weakly fair execution terminates with the result at the specification of the segment sums and the
    arguments unchanged. -/
theorem run : θ_run defs (onTc (τ := τ) (main (F := Ideal))) ⟨m, fun _ => 0, ρ⟩ fun r => ∀ c : Dev nD,
      r.2.mem ((c.tc : Thread nD τ).loc main_v17)
        = Cert.Spec.linearRows
            (agg (m ((c : Thread nD τ).loc main_arg0)) (m ((c : Thread nD τ).loc main_arg1)) (m ((c : Thread nD τ).loc main_arg2)))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(((h c).2 main_v17 (Pipeline.mem_restRefs_of main_v17 (by decide) (by decide))).trans (tail_eq m c)).trans (result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Whole

end
-- ==== Proof.ReferenceIsSpec.lean ====
/-
  The reference is the specification: it multiplies the segment sums by the transposed weight (a sum over the 64
  input features of sums(r, k) * W(j, k)) and adds the bias broadcast over the rows.
-/
import proofs.«148819_j14035953123516_2_alg».proof.Proof.Gen.ReferenceIdeal.Read
import proofs.«148819_j14035953123516_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The reference's result stage, as a whole array, is the specification of its own segment sums. -/
theorem ref_eq (x0 : (⟨S100000x64, .f32⟩ : BufTy).Contents (Elt Ideal)) (x1 x2 : (⟨S1600000, .i32⟩ : BufTy).Contents (Elt Ideal))
    (x3 : (⟨S64x64, .f32⟩ : BufTy).Contents (Elt Ideal)) (x4 : (⟨S64, .f32⟩ : BufTy).Contents (Elt Ideal)) :
    val_main_v14 (F := Ideal) x0 x1 x2 x3 x4 = Cert.Spec.linearRows (val_main_v9 (F := Ideal) x0 x1 x2) x3 x4 := by
  funext i
  obtain ⟨r, j, rfl⟩ : ∃ (r : Fin 100000) (j : Fin 64), i = ix2 r j := ⟨i 0, i 1, eq_ix2 i⟩
  have e1 : ∀ k : Fin 64, lidx_main_v11 (ix2 r j) k = ix2 r k := fun k => funext fun a => Fin.ext (by
    match a with
    | ⟨0, _⟩ => rfl
    | ⟨1, _⟩ => rfl)
  have e2 : ∀ k : Fin 64, idx_main_v10 (ridx_main_v11 (ix2 r j) k) = ix2 j k := fun k => funext fun a => Fin.ext (by
    match a with
    | ⟨0, _⟩ => rfl
    | ⟨1, _⟩ => rfl)
  have e3 : idx_main_v12 (idx_main_v13 (ix2 r j)) = ix1 j := funext fun a => Fin.ext (by
    match a with
    | ⟨0, _⟩ => rfl)
  rw [val_main_v14_apply, val_main_v11_apply, val_main_v13_apply, val_main_v12_apply, Cert.Spec.linearRows_apply]
  simp only [val_main_v10_apply, e1, e2, e3]
  rfl

end Cert.ReferenceIdeal.RefValue

end
-- ==== Proof.SameSums.lean ====
/-
  The two programs compute the segment sums by the same host lines (the same gather of rows of `features` at `src`,
  the same scatter-add at `dst` into zeros): the two terms are one.
-/
import proofs.«148819_j14035953123516_2_alg».proof.Proof.Gen.KernelIdeal
import proofs.«148819_j14035953123516_2_alg».proof.Proof.Gen.ReferenceIdeal.Read
import proofs.«148819_j14035953123516_2_alg».proof.Proof.HostTerms

noncomputable section

namespace Cert.Bridge

open Idealize.ShloMosaic

/-- The reference's segment sums are the kernel program's. -/
theorem sums_eq (x0 : (⟨Cert.KernelIdeal.S100000x64, .f32⟩ : BufTy).Contents (Elt Ideal))
    (x1 x2 : (⟨Cert.KernelIdeal.S1600000, .i32⟩ : BufTy).Contents (Elt Ideal)) :
    Cert.ReferenceIdeal.Read.val_main_v9 (F := Ideal) x0 x1 x2 = Cert.KernelIdeal.Staged.agg x0 x1 x2 := rfl

end Cert.Bridge

end
-- ==== Proof.lean ====
/-
  The layer  out = segment_sum(features[src], dst) W^T + b  computed two ways. Both programs form the segment sums by the
  same host gather and scatter-add. The reference then multiplies them by the transposed 64 x 64 weight and adds the bias.
  The kernel program regroups the 100000 x 64 sums two rows to a row (50000 x 128), multiplies by the 128 x 128 weight
  whose two diagonal squares are the transposed weight and whose other two squares are zero, adds the bias written twice,
  and regroups back. On the extended reals a term with a zero factor is zero whatever the other factor, so in each half
  of a 128-wide row only the matching 64 positions of the sum survive: the two results are the same function
  sum_k sums(r, k) * W(j, k) + b(j)  of the arguments, index by index, and no finiteness of the inputs is used.
  The three frames are the generated frame runs (the reference's is its generated run with the result dropped); the
  idealization rewrote nothing.
-/
import proofs.«148819_j14035953123516_2_alg».proof.Defs
import proofs.«148819_j14035953123516_2_alg».proof.Proof.Gen.Kernel
import proofs.«148819_j14035953123516_2_alg».proof.Proof.Gen.Kernel.Frame
import proofs.«148819_j14035953123516_2_alg».proof.Proof.Gen.KernelIdeal
import proofs.«148819_j14035953123516_2_alg».proof.Proof.Gen.KernelIdeal.Frame
import proofs.«148819_j14035953123516_2_alg».proof.Proof.Gen.ReferenceIdeal
import proofs.«148819_j14035953123516_2_alg».proof.Proof.Gen.ReferenceIdeal.Run
import proofs.«148819_j14035953123516_2_alg».proof.Proof.Gen.ReferenceIdeal.Read
import proofs.«148819_j14035953123516_2_alg».proof.Proof.Gen.Pre_finite_inputs
import proofs.«148819_j14035953123516_2_alg».proof.Proof.KernelRun
import proofs.«148819_j14035953123516_2_alg».proof.Proof.ReferenceIsSpec
import proofs.«148819_j14035953123516_2_alg».proof.Proof.SameSums
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the specification of the same segment sums of arguments that agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.ref_eq, Cert.Bridge.sums_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
